-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : IVec S50000 1) (main_arg3 : FVec F S64x128 .f32) (main_arg4 : FVec F S128 .f32) (main_arg5 : FVec F S128x32 .f32) (main_arg6 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg6 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S10000x64 : Shape := ⟨2, ![10000, 64]⟩
abbrev S10000x1 : Shape := ⟨2, ![10000, 1]⟩
abbrev S850000x64 : Shape := ⟨2, ![850000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S1x32 : Shape := ⟨2, ![1, 32]⟩
abbrev S50000x32 : Shape := ⟨2, ![50000, 32]⟩
abbrev S5000x32 : Shape := ⟨2, ![5000, 32]⟩
abbrev S850000x32 : Shape := ⟨2, ![850000, 32]⟩

abbrev nBuf : Space → Nat
  | .hbm => 87
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i1⟩
  | .hbm, ⟨3, _⟩ => ⟨S64x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000, .f32⟩
  | .hbm, ⟨43, _⟩ => ⟨S50000x1, .f32⟩
  | .hbm, ⟨44, _⟩ => ⟨S50000x64, .f32⟩
  | .hbm, ⟨45, _⟩ => ⟨S850000x1, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x64, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x128, .f32⟩
  | .hbm, ⟨62, _⟩ => ⟨S50000x128, .f32⟩
  | .hbm, ⟨63, _⟩ => ⟨S_, .f32⟩
  | .hbm, ⟨64, _⟩ => ⟨S32, .f32⟩
  | .hbm, ⟨65, _⟩ => ⟨S1x32, .f32⟩
  | .hbm, ⟨66, _⟩ => ⟨S50000x32, .f32⟩
  | .hbm, ⟨67, _⟩ => ⟨S850000x1, .f32⟩
  | .hbm, ⟨68, _⟩ => ⟨S850000x1, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x32, .f32⟩
  | .hbm, ⟨78, _⟩ => ⟨S850000x32, .f32⟩
  | .hbm, ⟨79, _⟩ => ⟨S850000x32, .f32⟩
  | .hbm, ⟨80, _⟩ => ⟨S_, .f32⟩
  | .hbm, ⟨81, _⟩ => ⟨S50000x32, .f32⟩
  | .hbm, ⟨82, _⟩ => ⟨S850000x1, .i32⟩
  | .hbm, ⟨83, _⟩ => ⟨S50000x32, .f32⟩
  | .hbm, ⟨84, _⟩ => ⟨S1x32, .f32⟩
  | .hbm, ⟨85, _⟩ => ⟨S50000x32, .f32⟩
  | .hbm, ⟨86, _⟩ => ⟨S50000x32, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S5000x64, .f32⟩
  | .local _ .vmem, ⟨7, _⟩ => ⟨S5000x64, .f32⟩
  | .local _ .vmem, ⟨8, _⟩ => ⟨S64x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_c_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S32 : S_.BroadcastsInDim S32 (![] : Fin 0 → Fin S32.rank)
  shapeCasts_S32_S1x32 : S32.ShapeCasts S1x32
  shapeCasts_S5000x128_S5000x128 : S5000x128.ShapeCasts S5000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  dot_S5000x128_S128x32_S5000x32_1_0_0_1_n_n_wf : DotDims.WF S5000x128 S128x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S50000x32.size a
  hwx2_3 : ∀ i : grid2.Coords, EltTy.bits .f32 = 32 ∨ (Rect.block (s := S50000x32) S5000x32.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S50000x128 : Shape := ⟨2, ![50000, 128]⟩
abbrev S1x128 : Shape := ⟨2, ![1, 128]⟩
abbrev S850000x128 : Shape := ⟨2, ![850000, 128]⟩
abbrev S50000x32 : Shape := ⟨2, ![50000, 32]⟩
abbrev S1x32 : Shape := ⟨2, ![1, 32]⟩

abbrev nBuf : Space → Nat
  | .hbm => 117
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i1⟩
  | .hbm, ⟨3, _⟩ => ⟨S64x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x64, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000, .i1⟩
  | .hbm, ⟨60, _⟩ => ⟨S850000, .f32⟩
  | .hbm, ⟨61, _⟩ => ⟨S850000x1, .f32⟩
  | .hbm, ⟨62, _⟩ => ⟨S_, .f32⟩
  | .hbm, ⟨63, _⟩ => ⟨S850000x64, .f32⟩
  | .hbm, ⟨64, _⟩ => ⟨S850000x64, .f32⟩
  | .hbm, ⟨65, _⟩ => ⟨S_, .f32⟩
  | .hbm, ⟨66, _⟩ => ⟨S850000x64, .f32⟩
  | .hbm, ⟨67, _⟩ => ⟨S850000x64, .f32⟩
  | .hbm, ⟨68, _⟩ => ⟨S_, .f32⟩
  | .hbm, ⟨69, _⟩ => ⟨S850000x64, .f32⟩
  | .hbm, ⟨70, _⟩ => ⟨S850000x64, .f32⟩
  | .hbm, ⟨71, _⟩ => ⟨S_, .f32⟩
  | .hbm, ⟨72, _⟩ => ⟨S850000x64, .f32⟩
  | .hbm, ⟨73, _⟩ => ⟨S850000x64, .f32⟩
  | .hbm, ⟨74, _⟩ => ⟨S850000x1, .f32⟩
  | .hbm, ⟨75, _⟩ => ⟨S850000x64, .f32⟩
  | .hbm, ⟨76, _⟩ => ⟨S850000x64, .f32⟩
  | .hbm, ⟨77, _⟩ => ⟨S_, .f32⟩
  | .hbm, ⟨78, _⟩ => ⟨S850000x1, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S850000x64, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S850000x1, .f32⟩
  | .hbm, ⟨97, _⟩ => ⟨S850000x1, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x128, .f32⟩
  | .hbm, ⟨107, _⟩ => ⟨S850000x128, .f32⟩
  | .hbm, ⟨108, _⟩ => ⟨S850000x128, .f32⟩
  | .hbm, ⟨109, _⟩ => ⟨S_, .f32⟩
  | .hbm, ⟨110, _⟩ => ⟨S50000x128, .f32⟩
  | .hbm, ⟨111, _⟩ => ⟨S850000x1, .i32⟩
  | .hbm, ⟨112, _⟩ => ⟨S50000x128, .f32⟩
  | .hbm, ⟨113, _⟩ => ⟨S50000x32, .f32⟩
  | .hbm, ⟨114, _⟩ => ⟨S1x32, .f32⟩
  | .hbm, ⟨115, _⟩ => ⟨S50000x32, .f32⟩
  | .hbm, ⟨116, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call0_cst : Ref sig .tc := ⟨.hbm, 93, rfl⟩
abbrev main_call0_v0 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S850000x64 : S_.BroadcastsInDim S850000x64 (![] : Fin 0 → Fin S850000x64.rank)
  bcast_S850000x1_S850000x64_0_1 : S850000x1.BroadcastsInDim S850000x64 (![0, 1] : Fin 2 → Fin S850000x64.rank)
  bcast_S_S850000x1 : S_.BroadcastsInDim S850000x1 (![] : Fin 0 → Fin S850000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S850000x1_S850000x128_0_1 : S850000x1.BroadcastsInDim S850000x128 (![0, 1] : Fin 2 → Fin S850000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x32_S50000x32_1_0_0_1_n_n_wf : DotDims.WF S50000x128 S128x32 S50000x32 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.KernelRun.lean ====
/-
  The idealized kernel's run with its result named.

  @main is seven segments: host operations, the node transform's pallas_call, host operations, the first dense
  layer's pallas_call, host operations, the second product's pallas_call, host operations. Every weakly fair
  execution ends with each unscoped buffer holding the last boundary's contents, a fold of the segments from the
  launch memory; read at the result buffer this is the result array, and at the arguments it is the launch memory.
-/
import proofs.«168506_j28295244546111_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Run

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«168506_j28295244546111_2_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.LibIndexed.lean ====
/-
  Rows taken and rows accumulated by run-time indices, entry by entry.

  Taking rows of a matrix by an integer column of indices reads, at result entry (r, c), the matrix at row
  "index r, read as a signed integer and clamped into the matrix's rows" and column c; taking entries of a
  flat array is the same without the column. Accumulating rows into a matrix by an integer column of indices
  adds update entry (r, c) to entry (index r, c) of the matrix when index r, read as a signed integer and NOT
  clamped, is one of the matrix's rows, and drops it otherwise; so on the extended reals every entry of the
  result is the entry it had plus the sum of the update entries whose index names its row.
-/
import Idealize.ShloMosaic.Lib.ValueIdx
import Idealize.ShloMosaic.Lib.Pipeline.Value
import Idealize.ShloMosaic.PureOps.Ideal.Laws

noncomputable section

open scoped BigOperators

namespace Cert.Indexed

open Idealize.ShloMosaic Idealize.ShloMosaic.ValueIdx

variable {α : Type}

/-- A word read as a signed integer and clamped into the rows 0 … N − 1. -/
def clampRow (N : Nat) (hN : 0 < N) {w : Nat} (v : BitVec w) : Fin N := ⟨min v.toInt.toNat (N - 1), by omega⟩

/-- A word, read as a signed integer and not clamped, names the row i. -/
def Names {N w : Nat} (v : BitVec w) (i : Fin N) : Prop := v.toInt = (i.val : ℤ)

instance {N w : Nat} (v : BitVec w) (i : Fin N) : Decidable (Names v i) := by unfold Names; infer_instance

/-! ## Taking entries of a flat array -/

/-- The dimension numbers of x[idx] for a flat array of N entries and a column of M indices. -/
abbrev flatGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry r of the taken array is the array at index r, clamped. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatGather N M wf) x idx y = x (ix1 (clampRow N hN (idx (ix2 (y 0) (0 : Fin 1))))) := by
  unfold Host.gather
  congr 1
  funext a
  obtain rfl : a = 0 := Subsingleton.elim _ _
  refine Fin.ext ?_
  show (flatGather N M wf).start y idx 0 + (flatGather N M wf).batchCoord y 0 + (flatGather N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N M wf).startIndexMap from List.mem_singleton.mpr rfl)]
  have hsi : (flatGather N M wf).siIdx y ⟨List.idxOf (0 : Fin 1) (flatGather N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-! ## Taking rows of a matrix -/

/-- The dimension numbers of x[idx] for a matrix of N rows of C and a column of M indices. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Entry (r, c) of the taken rows is the matrix at row "index r, clamped" and column c. -/
theorem rowGather_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowGather N C M wf) x idx y = x (ix2 (clampRow N hN (idx (ix2 (y 0) (0 : Fin 1)))) (y 1)) := by
  unfold Host.gather
  congr 1
  funext a
  refine Fin.ext ?_
  have key : ∀ a : Fin 2, (rowGather N C M wf).start y idx a + (rowGather N C M wf).batchCoord y a
      + (rowGather N C M wf).offCoord y a = ((ix2 (clampRow N hN (idx (ix2 (y 0) (0 : Fin 1)))) (y 1) :
        (⟨2, ![N, C]⟩ : Shape).Idx) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (0 : Fin 2) ∈ (rowGather N C M wf).startIndexMap from List.mem_singleton.mpr rfl)]
      have hsi : (rowGather N C M wf).siIdx y ⟨List.idxOf (0 : Fin 2) (rowGather N C M wf).startIndexMap,
          List.idxOf_lt_length_iff.2 (List.mem_singleton.mpr rfl)⟩ = ix2 (y 0) (0 : Fin 1) := by
        funext b; refine Fin.ext ?_
        match b with
        | ⟨0, _⟩ => rfl
        | ⟨1, _⟩ => rfl
      rw [hsi]
      rfl
    · rw [GatherDims.batchCoord_eq_zero _ _ _ List.not_mem_nil]
      unfold GatherDims.start
      rw [dif_neg (show (1 : Fin 2) ∉ ([0] : List (Fin 2)) from by decide)]
      simp only [Nat.add_zero, Nat.zero_add]
      unfold GatherDims.offCoord
      rw [dif_pos ((GatherDims.mem_sKept (rowGather N C M wf) 1).mpr ⟨(show (1 : Fin 2) ∉ ([0] : List (Fin 2)) from by decide), List.not_mem_nil⟩)]
      rfl
  exact key a

/-! ## Sums over the entries of a column and of a matrix, by coordinates -/

/-- A flat index set is its one coordinate's range. -/
def idxEquiv1 {n : Nat} : (⟨1, ![n]⟩ : Shape).Idx ≃ Fin n where
  toFun i := i 0
  invFun r := ix1 r
  left_inv i := (eq_ix1 i).symm
  right_inv _ := rfl

/-- A sum over a flat index set is the sum over its coordinate. -/
theorem sum_idx1 {A : Type*} [AddCommMonoid A] {n : Nat} (f : (⟨1, ![n]⟩ : Shape).Idx → A) :
    ∑ i, f i = ∑ r : Fin n, f (ix1 r) := by
  rw [← Equiv.sum_comp (idxEquiv1 (n := n)).symm f]; rfl

/-- The flat entries whose coordinate satisfies P, summed: the sum over the coordinates that satisfy P. -/
theorem sum_filter_idx1 {A : Type*} [AddCommMonoid A] {n : Nat} (P : Fin n → Prop) [DecidablePred P]
    [DecidablePred fun j : (⟨1, ![n]⟩ : Shape).Idx => P (j 0)] (f : (⟨1, ![n]⟩ : Shape).Idx → A) :
    ∑ j ∈ Finset.univ.filter (fun j : (⟨1, ![n]⟩ : Shape).Idx => P (j 0)), f j
      = ∑ r ∈ Finset.univ.filter P, f (ix1 r) := by
  rw [Finset.sum_filter, Finset.sum_filter, sum_idx1]
  exact Finset.sum_congr rfl fun r _ => by congr

/-- The entries of a matrix in column c whose row satisfies P, summed: the sum over the rows that satisfy P. -/
theorem sum_filter_idx2 {A : Type*} [AddCommMonoid A] {n C : Nat} (P : Fin n → Prop) [DecidablePred P] (c : Fin C)
    [DecidablePred fun j : (⟨2, ![n, C]⟩ : Shape).Idx => P (j 0) ∧ (j 1).val = c.val] (f : (⟨2, ![n, C]⟩ : Shape).Idx → A) :
    ∑ j ∈ Finset.univ.filter (fun j : (⟨2, ![n, C]⟩ : Shape).Idx => P (j 0) ∧ (j 1).val = c.val), f j
      = ∑ r ∈ Finset.univ.filter P, f (ix2 r c) := by
  rw [Finset.sum_filter, Finset.sum_filter, sum_idx2]
  refine Finset.sum_congr rfl fun r _ => ?_
  have e : ∀ b : Fin C, (P ((ix2 r b : (⟨2, ![n, C]⟩ : Shape).Idx) 0)
      ∧ ((ix2 r b : (⟨2, ![n, C]⟩ : Shape).Idx) 1).val = c.val) ↔ (P r ∧ b = c) :=
    fun b => ⟨fun h => ⟨h.1, Fin.ext h.2⟩, fun h => ⟨h.1, congrArg Fin.val h.2⟩⟩
  simp only [e]
  by_cases hP : P r
  · simp [hP]
  · simp [hP]

/-! ## Accumulating entries into a flat array -/

/-- The dimension numbers of x.at[idx].add(u) for a flat array of N entries and a column of M indices. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update entry r lands on entry i exactly when index r names i. -/
theorem flatScatter_lands {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (flatScatter N M wf).resultIdx? j idx = some i ↔ Names (idx (ix2 (j 0) (0 : Fin 1))) (i 0) := by
  have hs : (flatScatter N M wf).start j idx 0 = (idx (ix2 (j 0) (0 : Fin 1))).toInt := by
    unfold ScatterDims.start
    rw [dif_pos (show (0 : Fin 1) ∈ ([0] : List (Fin 1)) from List.mem_singleton.mpr rfl)]
    have hsi : (flatScatter N M wf).siIdx j ⟨List.idxOf (0 : Fin 1) (flatScatter N M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hw : (flatScatter N M wf).window j 0 = 0 := by
    unfold ScatterDims.window
    rw [dif_neg (by simp [ScatterDims.sKept, Shape.kept])]
  have hi : (i 0).val < N := (i 0).isLt
  have hsz : ((⟨1, ![N]⟩ : Shape).size 0 : ℤ) = (N : ℤ) := rfl
  unfold ScatterDims.resultIdx?
  split
  · rename_i h
    have h0 := h 0
    rw [hs, hw] at h0
    constructor
    · intro e
      have e0 : ((flatScatter N M wf).start j idx 0 + ((flatScatter N M wf).window j 0 : ℤ)).toNat = (i 0).val :=
        congrArg (fun f : (⟨1, ![N]⟩ : Shape).Idx => (f 0).val) (Option.some.inj e)
      rw [hs, hw] at e0
      unfold Names; omega
    · intro hn
      refine congrArg some (funext fun a => ?_)
      obtain rfl : a = 0 := Subsingleton.elim _ _
      refine Fin.ext ?_
      show ((flatScatter N M wf).start j idx 0 + ((flatScatter N M wf).window j 0 : ℤ)).toNat = (i 0).val
      rw [hs, hw]; unfold Names at hn; omega
  · rename_i h
    constructor
    · intro e; cases e
    · intro hn
      exfalso; apply h; intro a
      obtain rfl : a = 0 := Subsingleton.elim _ _
      rw [hs, hw, hsz]
      unfold Names at hn
      constructor <;> omega

/-- On the extended reals: entry i of the result is the entry it had plus the sum of the updates whose index names i. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (flatScatter N M wf) x idx upd i
      = x i + ∑ r ∈ Finset.univ.filter (fun r : Fin M => Names (idx (ix2 r (0 : Fin 1))) (i 0)), upd (ix1 r) := by
  unfold Ideal.hostScatterAdd
  congr 1
  rw [Finset.filter_congr (fun j _ => flatScatter_lands wf idx j i)]
  exact sum_filter_idx1 (fun r : Fin M => Names (idx (ix2 r (0 : Fin 1))) (i 0)) upd

/-! ## Accumulating rows into a matrix -/

/-- The dimension numbers of x.at[idx].add(u) for a matrix of N rows of C and a column of M indices. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (r, c) lands on entry (i, c') exactly when index r names i and c is c'. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx) :
    (rowScatter N C M wf).resultIdx? j idx = some i
      ↔ Names (idx (ix2 (j 0) (0 : Fin 1))) (i 0) ∧ (j 1).val = (i 1).val := by
  have hs0 : (rowScatter N C M wf).start j idx 0 = (idx (ix2 (j 0) (0 : Fin 1))).toInt := by
    unfold ScatterDims.start
    rw [dif_pos (show (0 : Fin 2) ∈ ([0] : List (Fin 2)) from List.mem_singleton.mpr rfl)]
    have hsi : (rowScatter N C M wf).siIdx j ⟨List.idxOf (0 : Fin 2) (rowScatter N C M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hs1 : (rowScatter N C M wf).start j idx 1 = 0 := by
    unfold ScatterDims.start
    rw [dif_neg (show (1 : Fin 2) ∉ ([0] : List (Fin 2)) from by decide)]
  have hw0 : (rowScatter N C M wf).window j 0 = 0 := by
    unfold ScatterDims.window
    rw [dif_neg (by simp [ScatterDims.sKept, Shape.kept])]
  have hw1 : (rowScatter N C M wf).window j 1 = (j 1).val := by
    unfold ScatterDims.window
    rw [dif_pos (by simp [ScatterDims.sKept, Shape.kept])]
    rfl
  have hi0 : (i 0).val < N := idx2_lt0 i
  have hi1 : (i 1).val < C := idx2_lt1 i
  have hj1 : (j 1).val < C := idx2_lt1 j
  have hsz0 : ((⟨2, ![N, C]⟩ : Shape).size 0 : ℤ) = (N : ℤ) := rfl
  have hsz1 : ((⟨2, ![N, C]⟩ : Shape).size 1 : ℤ) = (C : ℤ) := rfl
  unfold ScatterDims.resultIdx?
  split
  · rename_i h
    have h0 := h 0
    have h1 := h 1
    rw [hs0, hw0] at h0
    rw [hs1, hw1] at h1
    constructor
    · intro e
      have e0 : ((rowScatter N C M wf).start j idx 0 + ((rowScatter N C M wf).window j 0 : ℤ)).toNat = (i 0).val :=
        congrArg (fun f : (⟨2, ![N, C]⟩ : Shape).Idx => (f 0).val) (Option.some.inj e)
      have e1 : ((rowScatter N C M wf).start j idx 1 + ((rowScatter N C M wf).window j 1 : ℤ)).toNat = (i 1).val :=
        congrArg (fun f : (⟨2, ![N, C]⟩ : Shape).Idx => (f 1).val) (Option.some.inj e)
      rw [hs0, hw0] at e0
      rw [hs1, hw1] at e1
      unfold Names; constructor <;> omega
    · rintro ⟨hn, hc⟩
      refine congrArg some (funext fun a => Fin.ext ?_)
      have key : ∀ a : Fin 2, ((rowScatter N C M wf).start j idx a + ((rowScatter N C M wf).window j a : ℤ)).toNat
          = (i a).val := by
        refine Fin.forall_fin_two.2 ⟨?_, ?_⟩
        · rw [hs0, hw0]; unfold Names at hn; omega
        · rw [hs1, hw1]; omega
      exact key a
  · rename_i h
    constructor
    · intro e; cases e
    · rintro ⟨hn, hc⟩
      exfalso; apply h
      unfold Names at hn
      refine Fin.forall_fin_two.2 ⟨?_, ?_⟩
      · rw [hs0, hw0, hsz0]; constructor <;> omega
      · rw [hs1, hw1, hsz1]; constructor <;> omega

/-- On the extended reals: entry (i, c) of the result is the entry it had plus the sum over the update rows whose index
    names i of their entry in column c. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (p : Fin N) (c : Fin C) :
    Ideal.hostScatterAdd (rowScatter N C M wf) x idx upd (ix2 p c)
      = x (ix2 p c) + ∑ r ∈ Finset.univ.filter (fun r : Fin M => Names (idx (ix2 r (0 : Fin 1))) p), upd (ix2 r c) := by
  unfold Ideal.hostScatterAdd
  congr 1
  rw [Finset.filter_congr (fun j _ => rowScatter_lands wf idx j (ix2 p c))]
  exact sum_filter_idx2 (fun r : Fin M => Names (idx (ix2 r (0 : Fin 1))) p) c upd

/-! ## The same readings at an entry named by its coordinates -/

/-- Entry r of the taken array, r a coordinate. -/
theorem flatGather_at {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (r : Fin M) :
    Host.gather (flatGather N M wf) x idx (ix1 r) = x (ix1 (clampRow N hN (idx (ix2 r (0 : Fin 1))))) :=
  flatGather_apply hN wf x idx (ix1 r)

/-- Entry (r, c) of the taken rows, r and c coordinates. -/
theorem rowGather_at {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (c : Fin C) :
    Host.gather (rowGather N C M wf) x idx (ix2 r c) = x (ix2 (clampRow N hN (idx (ix2 r (0 : Fin 1)))) c) :=
  rowGather_apply hN wf x idx (ix2 r c)

/-- Entry i of the accumulated flat array, i a coordinate. -/
theorem flatScatterAdd_at {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (flatScatter N M wf) x idx upd (ix1 i)
      = x (ix1 i) + ∑ r ∈ Finset.univ.filter (fun r : Fin M => Names (idx (ix2 r (0 : Fin 1))) i), upd (ix1 r) :=
  flatScatterAdd_apply wf x idx upd (ix1 i)

end Cert.Indexed

end
-- ==== Proof.LibGraphConv.lean ====
/-
  A segment sum of gathered, scaled rows commutes with a matrix product on the right — on the extended reals, for
  real entries.

  Rows of a matrix H are taken by a column of run-time indices, scaled row by row by a column of weights a, and added
  into the rows another index column names: entry (v, k) of the result is the sum over the messages e landing on v of
  a(e) · H(ρ(e), k). Multiplying the result by W on the right gives, at (v, o), the sum over k of those sums times
  W(k, o); doing the product first, on H, and the segment sum after gives the sum over the messages landing on v of
  a(e) · (sum over k of H(ρ(e), k) · W(k, o)). The two are equal by distributivity of the product over a finite sum
  and exchanging the two sums: true of real numbers, false at the infinities, so every entry of a, H and W is taken
  real and the sums are computed in the reals.

  Beside it: which extended reals are real numbers and which operations keep them so, and the broadcasts of a column
  read at an entry.
-/
import proofs.«168506_j28295244546111_2_alg».proof.Proof.LibMatAssoc
import proofs.«168506_j28295244546111_2_alg».proof.Proof.LibIndexed

noncomputable section

open scoped BigOperators

namespace Cert.GraphConv

open Cert.Dense Cert.Gcn Cert.Indexed Idealize.ShloMosaic Idealize.ShloMosaic.ValueIdx

/-! ## Real numbers among the extended reals -/

/-- An extended real that is a real number (neither infinity). -/
def IsReal (x : EReal) : Prop := ∃ r : ℝ, x = (r : EReal)

theorem isReal_zero : IsReal 0 := ⟨0, EReal.coe_zero.symm⟩
theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
/-- A power of a real base to a real exponent is real (the real power function is total). -/
theorem IsReal.pow {x y : EReal} (hx : IsReal x) (hy : IsReal y) : IsReal (Ideal.pow x y) := by
  obtain ⟨a, rfl⟩ := hx; obtain ⟨b, rfl⟩ := hy; exact ⟨Real.rpow a b, rfl⟩
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- An f32 word whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split
  · exact ⟨_, rfl⟩
  · exact ⟨_, rfl⟩

/-! ## Arrays of real entries -/

section Arrays
variable {s t : Shape}

theorem finite_of_forall {X : s.Idx → EReal} (h : ∀ i, IsReal (X i)) : Finite X := h
theorem Finite.isReal {X : s.Idx → EReal} (h : Finite X) (i : s.Idx) : IsReal (X i) := h i

theorem finite_mulf {φ : FTy} {x y : FVec Ideal s φ} (hx : Finite x) (hy : Finite y) : Finite (mulf x y) :=
  fun i => IsReal.mul (hx i) (hy i)
theorem finite_addf {φ : FTy} {x y : FVec Ideal s φ} (hx : Finite x) (hy : Finite y) : Finite (addf x y) :=
  fun i => IsReal.add (hx i) (hy i)
theorem finite_subf {φ : FTy} {x y : FVec Ideal s φ} (hx : Finite x) (hy : Finite y) : Finite (subf x y) :=
  fun i => IsReal.sub (hx i) (hy i)
theorem finite_maximumf {φ : FTy} {x y : FVec Ideal s φ} (hx : Finite x) (hy : Finite y) : Finite (maximumf x y) :=
  fun i => IsReal.max (hx i) (hy i)
theorem finite_hostNegf {φ : FTy} {x : FVec Ideal s φ} (hx : Finite x) : Finite (Host.negf x) :=
  fun i => IsReal.neg (hx i)
theorem finite_hostPowf {φ : FTy} {x y : FVec Ideal s φ} (hx : Finite x) (hy : Finite y) : Finite (Host.powf x y) :=
  fun i => IsReal.pow (hx i) (hy i)
theorem finite_uitofp {φ : FTy} {w : ℕ} (x : IVec s w) : Finite (uitofp (F := Ideal) φ x) :=
  fun i => ⟨_, rfl⟩
theorem finite_constant_f32 (b : BitVec 32) (h : (b.extractLsb' 23 8).toNat ≠ 2 ^ 8 - 1) :
    Finite (constant (F := Ideal) s .f32 b) := fun _ => isReal_ofBits_f32 b h
theorem finite_broadcast (x : EReal) (hx : IsReal x) : Finite (broadcast s x) := fun _ => hx

/-- A layout operation, a broadcast or a gather reads its operand at some index: real entries stay real. -/
theorem finite_broadcastInDim {dims : Fin s.rank → Fin t.rank} (h : s.BroadcastsInDim t dims) {x : s.Idx → EReal}
    (hx : Finite x) : Finite (broadcastInDim t dims h x) := fun _ => hx _
theorem finite_broadcastTo (h : s.Broadcasts t) {x : s.Idx → EReal} (hx : Finite x) : Finite (broadcastTo t x h) :=
  fun _ => hx _
theorem finite_shapeCast (h : s.ShapeCasts t) {x : s.Idx → EReal} (hx : Finite x) : Finite (shapeCast t x h) :=
  fun _ => hx _
theorem finite_gather {si : Shape} {w : ℕ} (d : GatherDims s si t) {x : s.Idx → EReal} (idx : IVec si w)
    (hx : Finite x) : Finite (Host.gather d x idx) := fun _ => hx _
/-- A scatter-add adds finitely many of the updates to each entry. -/
theorem finite_scatterAdd {si su : Shape} {w : ℕ} (d : ScatterDims s si su) {x : s.Idx → EReal} (idx : IVec si w)
    {upd : su.Idx → EReal} (hx : Finite x) (hu : Finite upd) :
    Finite (Host.scatterAdd (F := Ideal) (φ := .f32) d x idx upd) := by
  intro i
  show IsReal (Ideal.hostScatterAdd d x idx upd i)
  unfold Ideal.hostScatterAdd
  exact IsReal.add (hx i) (IsReal.sum _ _ fun j _ => hu j)

end Arrays

/-- A matrix product of real entries has real entries. -/
theorem finite_mm {M K N : ℕ} {A : Mat M K} {W : Mat K N} (hA : Finite A) (hW : Finite W) : Finite (mm A W) :=
  fun i => IsReal.sum _ _ fun k _ => IsReal.mul (hA _) (hW _)
theorem finite_affine2 {M K N : ℕ} {A : Mat M K} {W : Mat K N} {b : Mat 1 N} (hA : Finite A) (hW : Finite W)
    (hb : Finite b) : Finite (affine2 A W b) := fun i => IsReal.add (finite_mm hA hW i) (hb _)
theorem finite_relu {M N : ℕ} {X : Mat M N} (hX : Finite X) : Finite (relu X) := fun i => IsReal.max (hX i) isReal_zero

/-! ## Broadcasts of a column, read at an entry -/

section Bcast
variable {α : Type}

/-- A scalar broadcast to any shape reads the scalar. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun ax => ax.elim0)

/-- A flat array of M entries as an M×1 column. -/
theorem bcast_col_apply {M : ℕ} (h : (⟨1, ![M]⟩ : Shape).BroadcastsInDim ⟨2, ![M, 1]⟩ ![0])
    (x : (⟨1, ![M]⟩ : Shape).Idx → α) (e : Fin M) (z : Fin 1) :
    broadcastInDim ⟨2, ![M, 1]⟩ ![0] h x (ix2 e z) = x (ix1 e) :=
  broadcastInDim_apply ![0] h x (ix2 e z) (ix1 e) (fun ax => by
    match ax with
    | ⟨0, _⟩ =>
      show e.val = if M = 1 then 0 else e.val
      split
      · have := e.isLt; omega
      · rfl)

/-- An M×1 column repeated over C columns. -/
theorem bcast_cols_apply {M C : ℕ} (h : (⟨2, ![M, 1]⟩ : Shape).BroadcastsInDim ⟨2, ![M, C]⟩ ![0, 1])
    (x : (⟨2, ![M, 1]⟩ : Shape).Idx → α) (e : Fin M) (c : Fin C) :
    broadcastInDim ⟨2, ![M, C]⟩ ![0, 1] h x (ix2 e c) = x (ix2 e (0 : Fin 1)) :=
  broadcastInDim_apply ![0, 1] h x (ix2 e c) (ix2 e (0 : Fin 1)) (fun ax => by
    match ax with
    | ⟨0, _⟩ =>
      show e.val = if M = 1 then 0 else e.val
      split
      · have := e.isLt; omega
      · rfl
    | ⟨1, _⟩ => rfl)

/-- The vector unit's broadcast of an A×1 column over B columns. -/
theorem broadcastTo_col_apply {A B : ℕ} (x : (⟨2, ![A, 1]⟩ : Shape).Idx → α)
    (h : (⟨2, ![A, 1]⟩ : Shape).Broadcasts ⟨2, ![A, B]⟩) (p : Fin A) (q : Fin B) :
    broadcastTo ⟨2, ![A, B]⟩ x h (ix2 p q) = x (ix2 p (0 : Fin 1)) := by
  refine broadcastTo_apply x h (ix2 p q) (ix2 p (0 : Fin 1)) fun ax => ?_
  match ax with
  | ⟨0, _⟩ =>
    show p.val = if A = 1 then 0 else p.val
    split
    · have := p.isLt; omega
    · rfl
  | ⟨1, _⟩ => rfl

end Bcast

/-! ## The linear step -/

/-- In the reals: a weighted sum of rows times a column is the weighted sum of the rows' products with the column. -/
theorem real_lin {ι : Type} {K : ℕ} (L : Finset ι) (a : ι → ℝ) (h : ι → Fin K → ℝ) (w : Fin K → ℝ) :
    ∑ k : Fin K, (∑ e ∈ L, a e * h e k) * w k = ∑ e ∈ L, a e * ∑ k : Fin K, h e k * w k := by
  simp_rw [Finset.sum_mul, Finset.mul_sum]
  rw [Finset.sum_comm]
  exact Finset.sum_congr rfl fun e _ => Finset.sum_congr rfl fun k _ => by ring

/-- The same on the extended reals, every entry real: the zero the segment sum starts from and the zero bias the
    early product adds are absorbed. -/
theorem segment_lin {M N K O : ℕ} (L : Finset (Fin M)) (a : Fin M → EReal) (r : Fin M → Fin N) (H : Mat N K) (W : Mat K O)
    (o : Fin O) (ha : ∀ e, IsReal (a e)) (hH : Finite H) (hW : Finite W) :
    0 + ∑ e ∈ L, a e * (∑ k : Fin K, H (ix2 (r e) k) * W (ix2 k o) + 0)
      = ∑ k : Fin K, (0 + ∑ e ∈ L, a e * H (ix2 (r e) k)) * W (ix2 k o) := by
  choose a' ha' using ha
  choose h' hh' using hH
  choose w' hw' using hW
  have hl : 0 + ∑ e ∈ L, a e * (∑ k : Fin K, H (ix2 (r e) k) * W (ix2 k o) + 0)
      = ((∑ e ∈ L, a' e * ∑ k : Fin K, h' (ix2 (r e) k) * w' (ix2 k o) : ℝ) : EReal) := by
    rw [zero_add, coe_sum]
    refine Finset.sum_congr rfl fun e _ => ?_
    rw [add_zero, EReal.coe_mul, coe_sum, ha']
    refine congrArg ((a' e : EReal) * ·) (Finset.sum_congr rfl fun k _ => ?_)
    rw [EReal.coe_mul, hh', hw']
  have hr : ∑ k : Fin K, (0 + ∑ e ∈ L, a e * H (ix2 (r e) k)) * W (ix2 k o)
      = ((∑ k : Fin K, (∑ e ∈ L, a' e * h' (ix2 (r e) k)) * w' (ix2 k o) : ℝ) : EReal) := by
    rw [coe_sum]
    refine Finset.sum_congr rfl fun k _ => ?_
    rw [zero_add, EReal.coe_mul, coe_sum, hw']
    refine congrArg (· * (w' (ix2 k o) : EReal)) (Finset.sum_congr rfl fun e _ => ?_)
    rw [EReal.coe_mul, ha', hh']
  rw [hl, hr]
  exact congrArg _ (real_lin L a' (fun e k => h' (ix2 (r e) k)) (fun k => w' (ix2 k o))).symm

/-- THE LINEAR STEP, at the operations: gathering rows of H · W (a product with a zero bias row), scaling them and
    segment-summing is the segment sum of the scaled gathered rows of H, times W — for real weights and entries. -/
theorem scatter_gather_mm {N M K O w : ℕ} (hN : 0 < N)
    (wfSO : ScatterDims.WF ⟨2, ![N, O]⟩ ⟨2, ![M, 1]⟩ ⟨2, ![M, O]⟩ [1] [0] [0] 1)
    (wfSK : ScatterDims.WF ⟨2, ![N, K]⟩ ⟨2, ![M, 1]⟩ ⟨2, ![M, K]⟩ [1] [0] [0] 1)
    (wfGO : GatherDims.WF ⟨2, ![N, O]⟩ ⟨2, ![M, 1]⟩ ⟨2, ![M, O]⟩ [1] [0] [] [0] [] 1 ![1, O])
    (wfGK : GatherDims.WF ⟨2, ![N, K]⟩ ⟨2, ![M, 1]⟩ ⟨2, ![M, K]⟩ [1] [0] [] [0] [] 1 ![1, K])
    (hbO : (⟨2, ![M, 1]⟩ : Shape).BroadcastsInDim ⟨2, ![M, O]⟩ ![0, 1])
    (hbK : (⟨2, ![M, 1]⟩ : Shape).BroadcastsInDim ⟨2, ![M, K]⟩ ![0, 1])
    (zO : Mat N O) (zK : Mat N K) (hzO : ∀ i, zO i = 0) (hzK : ∀ i, zK i = 0)
    (colc rown : IVec ⟨2, ![M, 1]⟩ w) (a : (⟨2, ![M, 1]⟩ : Shape).Idx → EReal)
    (H : Mat N K) (W : Mat K O) (zb : Mat 1 O) (hzb : ∀ q, zb (ix2 (0 : Fin 1) q) = 0)
    (ha : Finite a) (hH : Finite H) (hW : Finite W) :
    Host.scatterAdd (F := Ideal) (φ := .f32) (rowScatter N O M wfSO) zO colc
        (mulf (F := Ideal) (φ := .f32) (broadcastInDim ⟨2, ![M, O]⟩ ![0, 1] hbO a)
          (Host.gather (rowGather N O M wfGO) (affine2 H W zb) rown))
      = mm (Host.scatterAdd (F := Ideal) (φ := .f32) (rowScatter N K M wfSK) zK colc
          (mulf (F := Ideal) (φ := .f32) (broadcastInDim ⟨2, ![M, K]⟩ ![0, 1] hbK a)
            (Host.gather (rowGather N K M wfGK) H rown))) W := by
  funext i
  obtain ⟨v, o, rfl⟩ : ∃ (v : Fin N) (o : Fin O), i = ix2 v o := ⟨i 0, i 1, eq_ix2 i⟩
  have hL : Host.scatterAdd (F := Ideal) (φ := .f32) (rowScatter N O M wfSO) zO colc
        (mulf (F := Ideal) (φ := .f32) (broadcastInDim ⟨2, ![M, O]⟩ ![0, 1] hbO a)
          (Host.gather (rowGather N O M wfGO) (affine2 H W zb) rown)) (ix2 v o)
      = 0 + ∑ e ∈ Finset.univ.filter (fun e : Fin M => Names (colc (ix2 e (0 : Fin 1))) v),
          a (ix2 e (0 : Fin 1)) * (∑ k : Fin K, H (ix2 (clampRow N hN (rown (ix2 e (0 : Fin 1)))) k) * W (ix2 k o) + 0) := by
    refine (rowScatterAdd_apply wfSO zO colc _ v o).trans ?_
    rw [hzO]
    refine congrArg (0 + ·) (Finset.sum_congr rfl fun e _ => ?_)
    show broadcastInDim ⟨2, ![M, O]⟩ ![0, 1] hbO a (ix2 e o) * Host.gather (rowGather N O M wfGO) (affine2 H W zb) rown (ix2 e o) = _
    rw [bcast_cols_apply, rowGather_at hN]
    show _ * (mm H W (ix2 (clampRow N hN (rown (ix2 e (0 : Fin 1)))) o) + zb (ix2 (0 : Fin 1) o)) = _
    rw [hzb]
    rfl
  have hR : ∀ k : Fin K, Host.scatterAdd (F := Ideal) (φ := .f32) (rowScatter N K M wfSK) zK colc
        (mulf (F := Ideal) (φ := .f32) (broadcastInDim ⟨2, ![M, K]⟩ ![0, 1] hbK a)
          (Host.gather (rowGather N K M wfGK) H rown)) (ix2 v k)
      = 0 + ∑ e ∈ Finset.univ.filter (fun e : Fin M => Names (colc (ix2 e (0 : Fin 1))) v),
          a (ix2 e (0 : Fin 1)) * H (ix2 (clampRow N hN (rown (ix2 e (0 : Fin 1)))) k) := by
    intro k
    refine (rowScatterAdd_apply wfSK zK colc _ v k).trans ?_
    rw [hzK]
    refine congrArg (0 + ·) (Finset.sum_congr rfl fun e _ => ?_)
    show broadcastInDim ⟨2, ![M, K]⟩ ![0, 1] hbK a (ix2 e k) * Host.gather (rowGather N K M wfGK) H rown (ix2 e k) = _
    rw [bcast_cols_apply, rowGather_at hN]
  have key : ∀ X : Mat N K, mm X W (ix2 v o) = ∑ k : Fin K, X (ix2 v k) * W (ix2 k o) := fun X => rfl
  rw [hL, key]
  refine (segment_lin _ (fun e => a (ix2 e (0 : Fin 1))) (fun e => clampRow N hN (rown (ix2 e (0 : Fin 1)))) H W o
    (fun e => ha _) hH hW).trans ?_
  exact Finset.sum_congr rfl fun k _ => congrArg (· * W (ix2 k o)) (hR k).symm

end Cert.GraphConv

end
-- ==== Proof.Spec.lean ====
/-
  The node transform of this graph convolution, on scalars and on arrays.

  A node's feature x is replaced by p · ((c₁ · x − 1) · c₂ + ½) + (1 − p) · x, where p is the node's privacy mask as a
  number (0 or 1) and c₁, c₂ are two float literals kept as their words (both programs carry the same words, so they
  are never evaluated; only that they denote real numbers is used). As a function of a matrix of features and a
  column of masks it acts entry by entry, the mask of the entry's row.
-/
import proofs.«168506_j28295244546111_2_alg».proof.Proof.LibGraphConv

noncomputable section

namespace Cert.Gcn

open Cert.Dense Cert.GraphConv Idealize.ShloMosaic Idealize.ShloMosaic.ValueIdx

/-- The four literals: c₁, 1, c₂, ½ as the programs spell them. -/
abbrev lit1 : EReal := Ideal.ofBits .f32 0x406DF854#32
abbrev litOne : EReal := Ideal.ofBits .f32 0x3F800000#32
abbrev lit2 : EReal := Ideal.ofBits .f32 0x3F14FC6D#32
abbrev litHalf : EReal := Ideal.ofBits .f32 0x3F000000#32

theorem isReal_lit1 : IsReal lit1 := isReal_ofBits_f32 _ (by decide)
theorem isReal_litOne : IsReal litOne := isReal_ofBits_f32 _ (by decide)
theorem isReal_lit2 : IsReal lit2 := isReal_ofBits_f32 _ (by decide)
theorem isReal_litHalf : IsReal litHalf := isReal_ofBits_f32 _ (by decide)

/-- The transform of one feature x under the mask value p. -/
def phi (x p : EReal) : EReal := p * ((lit1 * x - litOne) * lit2 + litHalf) + (litOne - p) * x

theorem isReal_phi {x p : EReal} (hx : IsReal x) (hp : IsReal p) : IsReal (phi x p) :=
  (hp.mul ((((isReal_lit1.mul hx).sub isReal_litOne).mul isReal_lit2).add isReal_litHalf)).add ((isReal_litOne.sub hp).mul hx)

/-- The transform of an N×D matrix of features under an N×1 column of mask values. -/
def nodeT {N D : ℕ} (X : Mat N D) (P : Mat N 1) : Mat N D := fun i => phi (X i) (P (ix2 (i 0) (0 : Fin 1)))

theorem nodeT_apply {N D : ℕ} (X : Mat N D) (P : Mat N 1) (r : Fin N) (d : Fin D) :
    nodeT X P (ix2 r d) = phi (X (ix2 r d)) (P (ix2 r (0 : Fin 1))) := rfl

theorem finite_nodeT {N D : ℕ} {X : Mat N D} {P : Mat N 1} (hX : Finite X) (hP : Finite P) : Finite (nodeT X P) :=
  fun i => isReal_phi (hX i) (hP _)

end Cert.Gcn

end
-- ==== Proof.Blocks.lean ====
/-
  What each of the three pallas_calls leaves in its output array, as one function of the arrays it finds.

  Each call walks the node axis in blocks of rows (five blocks of 10000 rows for the node transform, ten of 5000 for
  the two dense layers); at a point the body reads the block of rows of its first operand (and, for the dense layers,
  the whole weight matrix and bias row), computes, and writes the block of rows of the result back. The node
  transform acts entry by entry, and a dense layer's row depends on the input's same row only, so block t of the
  result is block t of ONE whole-array function of the inputs; the blocks cover the array (row r lies in block
  r / 10000, or r / 5000), so the array ends holding that function.
-/
import proofs.«168506_j28295244546111_2_alg».proof.Proof.Gen.KernelIdeal.Frame
import proofs.«168506_j28295244546111_2_alg».proof.Proof.Spec

set_option maxRecDepth 16384

noncomputable section

namespace Cert.KernelIdeal.Blocks

open Cert.KernelIdeal Cert.KernelIdeal.Gen Cert.Dense Cert.Gcn Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The node transform's call -/

/-- The body's arithmetic at an entry: the transform of the feature under its row's mask value. -/
theorem pay0_at (x0 : Vec Ideal S10000x64 .f32) (x1 : Vec Ideal S10000x1 .f32) (j : S10000x64.Idx) :
    k0_pay1 x0 x1 j = phi (x0 j) (x1 (ix2 (j 0) (0 : Fin 1))) := by
  obtain ⟨p, q, rfl⟩ : ∃ (p : Fin 10000) (q : Fin 64), j = ix2 p q := ⟨j 0, j 1, eq_ix2 j⟩
  have e1 : broadcastTo S10000x64 (shapeCast S10000x1 x1 shapeCasts_S10000x1_S10000x1) broadcasts_S10000x1_S10000x64 (ix2 p q)
      = x1 (ix2 p (0 : Fin 1)) := by
    rw [broadcastTo_col_apply, shapeCast_self]
  have e2 : broadcastTo S10000x64 (subf (broadcast S10000x1 (Scalar.ofBits (F := Ideal) .f32 0x3F800000#32))
        (shapeCast S10000x1 x1 shapeCasts_S10000x1_S10000x1)) broadcasts_S10000x1_S10000x64 (ix2 p q)
      = litOne - x1 (ix2 p (0 : Fin 1)) := by
    rw [broadcastTo_col_apply, shapeCast_self]
    rfl
  show broadcastTo S10000x64 (shapeCast S10000x1 x1 shapeCasts_S10000x1_S10000x1) broadcasts_S10000x1_S10000x64 (ix2 p q)
        * ((lit1 * x0 (ix2 p q) - litOne) * lit2 + litHalf)
      + broadcastTo S10000x64 (subf (broadcast S10000x1 (Scalar.ofBits (F := Ideal) .f32 0x3F800000#32))
          (shapeCast S10000x1 x1 shapeCasts_S10000x1_S10000x1)) broadcasts_S10000x1_S10000x64 (ix2 p q) * x0 (ix2 p q) = _
  rw [e1, e2]
  rfl

/-- The printed index maps over the five points: every window's block of rows is the point's, column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the transform of the arrays the region finds. -/
theorem flushed0 (c : Dev nD) (t : Fin cfg0.N) :
    (dat0 V c).flushed 2 t = ((cfg0.win 2).blk t).view.read (Elt Ideal) (nodeT (V c main_arg0) (V c main_v29)) := by
  show (cfg0.win 2).cut (grid0.coords t) ((dat0 V c).after 2 t) = _
  rw [after0_2]
  unfold out0_2
  rw [View.canon_unit_zero hz]
  simp only [View.ld_unit_zero (S := S10000x64) hz, View.ld_unit_zero (S := S10000x1) hz]
  obtain ⟨e00, e01, e10, e11, e20, e21⟩ := idx_facts0 t
  funext j
  refine (pay0_at _ _ j).trans ?_
  show phi (V c main_arg0 (((cfg0.win 0).blk t).view.emb j)) (V c main_v29 (((cfg0.win 1).blk t).view.emb (ix2 (j 0) (0 : Fin 1))))
      = phi (V c main_arg0 (((cfg0.win 2).blk t).view.emb j)) (V c main_v29 (ix2 ((((cfg0.win 2).blk t).view.emb j) 0) (0 : Fin 1)))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (j 0) (0 : Fin 1)) = ix2 ((((cfg0.win 2).blk t).view.emb j) 0) (0 : Fin 1) := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  rw [h0, h1]
  rfl

/-- An index of the array is in point t's block iff each coordinate is in the block's range on its axis. -/
theorem mem_blk0 (t : Fin cfg0.N) (i : S50000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row r lies in the block of point r / 10000. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 5 := N_0
  have ht : (i 0).val / 10000 < grid0.N := by omega
  obtain ⟨-, -, -, -, e20, e21⟩ := idx_facts0 ⟨(i 0).val / 10000, ht⟩
  have e20' : win0_2.index ⟨(i 0).val / 10000, ht⟩ (0 : Fin 2) = (i 0).val / 10000 := e20
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    omega

/-- The transformed features: the output array after the call. -/
theorem final0 (c : Dev nD) : (dat0 V c).arrAt 2 cfg0.N = nodeT (V c main_arg0) (V c main_v29) :=
  (dat0 V c).arrAt_eq_of_cover 2 _ (fun t _ => flushed0 V c t) cover0

/-! ## The first dense layer's call: rectified rows · W1 + b1 -/

/-- The printed matrix-product dimensions are the plain M×K by K×N ones. -/
theorem dot1_plain : dot_S5000x64_S64x128_S5000x128_1_0_0_1_n_n = DotDims.plain 5000 64 128 := rfl

/-- The body's arithmetic: the rectified affine layer of the block of rows. -/
theorem pay1_eq (x0 : Vec Ideal S5000x64 .f32) (x2 : Vec Ideal S64x128 .f32) (x4 : Vec Ideal S1x128 .f32) :
    k1_pay1 x0 x2 x4 = relu (affine2 x0 x2 x4) := by
  show maximumf (addf (matmul dot_S5000x64_S64x128_S5000x128_1_0_0_1_n_n none (shapeCast S5000x64 x0 shapeCasts_S5000x64_S5000x64) x2
      (constant (F := Ideal) S5000x128 .f32 0x00000000#32)) (broadcastTo S5000x128 (shapeCast S1x128 x4 shapeCasts_S1x128_S1x128) broadcasts_S1x128_S5000x128))
      (broadcast S5000x128 (Scalar.ofBits (F := Ideal) .f32 0x00000000#32)) = _
  rw [shapeCast_self, shapeCast_self, dot1_plain, addf_matmul_broadcastTo, maximumf_splat_zero]

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t is row 5000 t + p of the array. -/
def rowAt1 (t : Fin cfg1.N) (p : Fin 5000) : Fin 50000 :=
  ⟨t.val * 5000 + p.val, by have hN : grid1.N = 10 := N_1; have h1 : t.val < grid1.N := t.isLt; have h2 := p.isLt; omega⟩

/-- The block of rows of the input the body reads at point t. -/
theorem blk1_0 (c : Dev nD) (t : Fin cfg1.N) (p : Fin 5000) (k : Fin 64) :
    iblk1 V c 0 t (ix2 p k) = V c main_v43 (ix2 (rowAt1 t p) k) := by
  obtain ⟨e00, e01, -⟩ := idx_facts1 t
  show V c main_v43 (((cfg1.win 0).blk t).view.emb (ix2 p k)) = _
  refine congrArg (V c main_v43) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

/-- The weight matrix is read whole at every point. -/
theorem blk1_1 (c : Dev nD) (t : Fin cfg1.N) : iblk1 V c 1 t = V c main_arg3 := by
  obtain ⟨-, -, e10, e11, -⟩ := idx_facts1 t
  funext y
  show V c main_arg3 (((cfg1.win 1).blk t).view.emb y) = V c main_arg3 y
  refine congrArg (V c main_arg3) (funext fun a => Fin.ext ?_)
  match a with
  | ⟨0, _⟩ => show win1_1.index t (0 : Fin 2) * 64 + 1 * (y 0).val = (y 0).val; omega
  | ⟨1, _⟩ => show win1_1.index t (1 : Fin 2) * 128 + 1 * (y 1).val = (y 1).val; omega

/-- The bias row is read whole at every point. -/
theorem blk1_2 (c : Dev nD) (t : Fin cfg1.N) : iblk1 V c 2 t = V c main_v44 := by
  obtain ⟨-, -, -, -, e20, e21, -⟩ := idx_facts1 t
  funext y
  show V c main_v44 (((cfg1.win 2).blk t).view.emb y) = V c main_v44 y
  refine congrArg (V c main_v44) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Where entry (p, q) of block t of the output sits in the array. -/
theorem emb1_3 (t : Fin cfg1.N) (p : Fin 5000) (q : Fin 128) :
    ((cfg1.win 3).blk t).view.emb (ix2 p q) = ix2 (rowAt1 t p) q := by
  obtain ⟨-, -, -, -, -, -, e30, e31⟩ := idx_facts1 t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

theorem flushed1 (c : Dev nD) (t : Fin cfg1.N) :
    (dat1 V c).flushed 3 t = ((cfg1.win 3).blk t).view.read (Elt Ideal) (relu (affine2 (V c main_v43) (V c main_arg3) (V c main_v44))) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x128) hz, View.ld_unit_zero (S := S1x128) hz]
  rw [pay1_eq, blk1_1 V c t, blk1_2 V c t]
  funext j
  obtain ⟨p, q, rfl⟩ : ∃ (p : Fin 5000) (q : Fin 128), j = ix2 p q := ⟨j 0, j 1, eq_ix2 j⟩
  show _ = relu (affine2 (V c main_v43) (V c main_arg3) (V c main_v44)) (((cfg1.win 3).blk t).view.emb (ix2 p q))
  rw [emb1_3]
  exact relu_affine2_rows (V c main_v43) (iblk1 V c 0 t) (V c main_arg3) (V c main_v44) (rowAt1 t) (blk1_0 V c t) p q

theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v45).slice (win1_3.rect t)).set ↔ _
  rw [View.set_slice_whole, Rect.mem_set_unit]
  exact Iff.rfl

theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  have ht : (i 0).val / 5000 < grid1.N := by omega
  obtain ⟨-, -, -, -, -, -, e30, e31⟩ := idx_facts1 ⟨(i 0).val / 5000, ht⟩
  have e30' : win1_3.index ⟨(i 0).val / 5000, ht⟩ (0 : Fin 2) = (i 0).val / 5000 := e30
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    omega

/-- The hidden features: the output array after the call. -/
theorem final1 (c : Dev nD) : (dat1 V c).arrAt 3 cfg1.N = relu (affine2 (V c main_v43) (V c main_arg3) (V c main_v44)) :=
  (dat1 V c).arrAt_eq_of_cover 3 _ (fun t _ => flushed1 V c t) cover1

/-! ## The second product's call: rows · W2 + a zero row -/

theorem dot2_plain : dot_S5000x128_S128x32_S5000x32_1_0_0_1_n_n = DotDims.plain 5000 128 32 := rfl

theorem pay2_eq (x0 : Vec Ideal S5000x128 .f32) (x2 : Vec Ideal S128x32 .f32) (x4 : Vec Ideal S1x32 .f32) :
    k2_pay1 x0 x2 x4 = affine2 x0 x2 x4 := by
  show addf (matmul dot_S5000x128_S128x32_S5000x32_1_0_0_1_n_n none (shapeCast S5000x128 x0 shapeCasts_S5000x128_S5000x128) x2
      (constant (F := Ideal) S5000x32 .f32 0x00000000#32)) (broadcastTo S5000x32 (shapeCast S1x32 x4 shapeCasts_S1x32_S1x32) broadcasts_S1x32_S5000x32) = _
  rw [shapeCast_self, shapeCast_self, dot2_plain, addf_matmul_broadcastTo]

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

def rowAt2 (t : Fin cfg2.N) (p : Fin 5000) : Fin 50000 :=
  ⟨t.val * 5000 + p.val, by have hN : grid2.N = 10 := N_2; have h1 : t.val < grid2.N := t.isLt; have h2 := p.isLt; omega⟩

theorem blk2_0 (c : Dev nD) (t : Fin cfg2.N) (p : Fin 5000) (k : Fin 128) :
    iblk2 V c 0 t (ix2 p k) = V c main_v45 (ix2 (rowAt2 t p) k) := by
  obtain ⟨e00, e01, -⟩ := idx_facts2 t
  show V c main_v45 (((cfg2.win 0).blk t).view.emb (ix2 p k)) = _
  refine congrArg (V c main_v45) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

theorem blk2_1 (c : Dev nD) (t : Fin cfg2.N) : iblk2 V c 1 t = V c main_arg5 := by
  obtain ⟨-, -, e10, e11, -⟩ := idx_facts2 t
  funext y
  show V c main_arg5 (((cfg2.win 1).blk t).view.emb y) = V c main_arg5 y
  refine congrArg (V c main_arg5) (funext fun a => Fin.ext ?_)
  match a with
  | ⟨0, _⟩ => show win2_1.index t (0 : Fin 2) * 128 + 1 * (y 0).val = (y 0).val; omega
  | ⟨1, _⟩ => show win2_1.index t (1 : Fin 2) * 32 + 1 * (y 1).val = (y 1).val; omega

theorem blk2_2 (c : Dev nD) (t : Fin cfg2.N) : iblk2 V c 2 t = V c main_v47 := by
  obtain ⟨-, -, -, -, e20, e21, -⟩ := idx_facts2 t
  funext y
  show V c main_v47 (((cfg2.win 2).blk t).view.emb y) = V c main_v47 y
  refine congrArg (V c main_v47) (funext fun a => Fin.ext ?_)
  match a with
  | ⟨0, _⟩ => show win2_2.index t (0 : Fin 2) * 1 + 1 * (y 0).val = (y 0).val; omega
  | ⟨1, _⟩ => show win2_2.index t (1 : Fin 2) * 32 + 1 * (y 1).val = (y 1).val; omega

theorem emb2_3 (t : Fin cfg2.N) (p : Fin 5000) (q : Fin 32) :
    ((cfg2.win 3).blk t).view.emb (ix2 p q) = ix2 (rowAt2 t p) q := by
  obtain ⟨-, -, -, -, -, -, e30, e31⟩ := idx_facts2 t
  funext a; apply Fin.ext
  match a with
  | ⟨0, _⟩ => show win2_3.index t (0 : Fin 2) * 5000 + 1 * p.val = t.val * 5000 + p.val; omega
  | ⟨1, _⟩ => show win2_3.index t (1 : Fin 2) * 32 + 1 * q.val = q.val; omega

theorem flushed2 (c : Dev nD) (t : Fin cfg2.N) :
    (dat2 V c).flushed 3 t = ((cfg2.win 3).blk t).view.read (Elt Ideal) (affine2 (V c main_v45) (V c main_arg5) (V c main_v47)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x32) hz, View.ld_unit_zero (S := S1x32) hz]
  rw [pay2_eq, blk2_1 V c t, blk2_2 V c t]
  funext j
  obtain ⟨p, q, rfl⟩ : ∃ (p : Fin 5000) (q : Fin 32), j = ix2 p q := ⟨j 0, j 1, eq_ix2 j⟩
  show _ = affine2 (V c main_v45) (V c main_arg5) (V c main_v47) (((cfg2.win 3).blk t).view.emb (ix2 p q))
  rw [emb2_3]
  exact affine2_rows (V c main_v45) (iblk2 V c 0 t) (V c main_arg5) (V c main_v47) (rowAt2 t) (blk2_0 V c t) p q

theorem mem_blk2 (t : Fin cfg2.N) (i : S50000x32.Idx) :
    i ∈ ((cfg2.win 3).blk t).view.set ↔ ∀ a : Fin 2, win2_3.index t a * S5000x32.size a ≤ (i a).val
      ∧ (i a).val < win2_3.index t a * S5000x32.size a + S5000x32.size a := by
  show i ∈ ((View.whole main_v48).slice (win2_3.rect t)).set ↔ _
  rw [View.set_slice_whole, Rect.mem_set_unit]
  exact Iff.rfl

theorem cover2 (i : S50000x32.Idx) : ∃ t : Fin cfg2.N, (cfg2.win 3).flush t = true ∧ i ∈ ((cfg2.win 3).blk t).view.set := by
  have hi0 : (i 0).val < 50000 := (i 0).isLt
  have hi1 : (i 1).val < 32 := (i 1).isLt
  have hN : grid2.N = 10 := N_2
  have ht : (i 0).val / 5000 < grid2.N := by omega
  obtain ⟨-, -, -, -, -, -, e30, e31⟩ := idx_facts2 ⟨(i 0).val / 5000, ht⟩
  have e30' : win2_3.index ⟨(i 0).val / 5000, ht⟩ (0 : Fin 2) = (i 0).val / 5000 := e30
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    omega
  | ⟨1, _⟩ =>
    show win2_3.index ⟨(i 0).val / 5000, ht⟩ (1 : Fin 2) * 32 ≤ (i 1).val
      ∧ (i 1).val < win2_3.index ⟨(i 0).val / 5000, ht⟩ (1 : Fin 2) * 32 + 32
    omega

/-- The early product: the output array after the call. -/
theorem final2 (c : Dev nD) : (dat2 V c).arrAt 3 cfg2.N = affine2 (V c main_v45) (V c main_arg5) (V c main_v47) :=
  (dat2 V c).arrAt_eq_of_cover 3 _ (fun t _ => flushed2 V c t) cover2

end Cert.KernelIdeal.Blocks

end
-- ==== Proof.Stages.lean ====
/-
  The idealized kernel's host stages, as functions of the argument arrays.

  From the edge list: the source and target index arrays with the self loops appended; the degree of every node (a
  scatter-add of ones by source), its power −½, and the edge weight, the product of that power at the edge's two ends
  (each read through the index normalised for a gather: an index below zero has the node count added). From the mask:
  its value as a number, as a column. Then the three layers around the pallas_calls: the transformed features
  gathered by source, weighted and summed by target; the rectified dense layer; the early product with the second
  weight matrix, gathered, weighted by the negated weights, summed by target, plus the output bias.
-/
import proofs.«168506_j28295244546111_2_alg».proof.Proof.Gen.KernelIdeal
import proofs.«168506_j28295244546111_2_alg».proof.Proof.Spec

noncomputable section

namespace Cert.KernelIdeal.Stages

open Cert.KernelIdeal Cert.KernelIdeal.Gen Cert.Dense Cert.Gcn Cert.GraphConv
open Idealize.ShloMosaic Idealize.ShloMosaic.ValueIdx

abbrev A0 := (⟨S50000x64, .f32⟩ : BufTy).Contents (Elt Ideal)
abbrev A1 := (⟨S2x800000, .i32⟩ : BufTy).Contents (Elt Ideal)
abbrev A2 := (⟨S50000, .i1⟩ : BufTy).Contents (Elt Ideal)
abbrev A3 := (⟨S64x128, .f32⟩ : BufTy).Contents (Elt Ideal)
abbrev A4 := (⟨S128, .f32⟩ : BufTy).Contents (Elt Ideal)
abbrev A5 := (⟨S128x32, .f32⟩ : BufTy).Contents (Elt Ideal)
abbrev A6 := (⟨S32, .f32⟩ : BufTy).Contents (Elt Ideal)

/-- The edges' source nodes, then every node once (its self loop). -/
def rowV (a1 : A1) : (⟨S850000, .i32⟩ : BufTy).Contents (Elt Ideal) :=
  concatenate S850000 0 [⟨S800000, shapeCast S800000 (extractStridedSlice S1x800000 ![0, 0] a1 slices_S2x800000_S1x800000_0_0) shapeCasts_S1x800000_S800000⟩,
    ⟨S50000, iotaInDim S50000 32 0⟩] concatenates_S800000_S50000_S850000_d0

/-- The edges' target nodes, then every node once. -/
def colV (a1 : A1) : (⟨S850000, .i32⟩ : BufTy).Contents (Elt Ideal) :=
  concatenate S850000 0 [⟨S800000, shapeCast S800000 (extractStridedSlice S1x800000 ![1, 0] a1 slices_S2x800000_S1x800000_1_0) shapeCasts_S1x800000_S800000⟩,
    ⟨S50000, iotaInDim S50000 32 0⟩] concatenates_S800000_S50000_S850000_d0

/-- An index array as the column a gather reads: an index below zero has the node count added. -/
def gidx (v : (⟨S850000, .i32⟩ : BufTy).Contents (Elt Ideal)) : (⟨S850000x1, .i32⟩ : BufTy).Contents (Elt Ideal) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- An index array as the column a scatter reads. -/
def sidx (v : (⟨S850000, .i32⟩ : BufTy).Contents (Elt Ideal)) : (⟨S850000x1, .i32⟩ : BufTy).Contents (Elt Ideal) :=
  broadcastInDim S850000x1 ![0] bcast_S850000_S850000x1_0 v

/-- Every node's degree: the count of the messages it sends. -/
def degV (a1 : A1) : FVec Ideal S50000 .f32 :=
  Host.scatterAdd scatter_S50000_S850000x1_S850000_n_0_0_1 (broadcastInDim S50000 ![] bcast_S_S50000 (constant S_ .f32 0x00000000#32))
    (sidx (rowV a1)) (broadcastInDim S850000 ![] bcast_S_S850000 (constant S_ .f32 0x3F800000#32))

/-- The degree to the power −½. -/
def disV (a1 : A1) : FVec Ideal S50000 .f32 :=
  Host.powf (degV a1) (broadcastInDim S50000 ![] bcast_S_S50000 (constant S_ .f32 0xBF000000#32))

/-- A message's weight: the product of that power at its source and at its target. -/
def normV (a1 : A1) : FVec Ideal S850000 .f32 :=
  mulf (Host.gather gather_S50000_S850000x1_S850000_n_0_n_n_0_1_1 (disV a1) (gidx (rowV a1)))
    (Host.gather gather_S50000_S850000x1_S850000_n_0_n_n_0_1_1 (disV a1) (gidx (colV a1)))

/-- The weights as a column. -/
def normC (a1 : A1) : FVec Ideal S850000x1 .f32 := broadcastInDim S850000x1 ![0] bcast_S850000_S850000x1_0 (normV a1)

/-- The mask as a column of numbers. -/
def pV (a2 : A2) : FVec Ideal S50000x1 .f32 := shapeCast S50000x1 (uitofp .f32 a2) shapeCasts_S50000_S50000x1

/-- The transformed features. -/
def yV (a0 : A0) (a2 : A2) : FVec Ideal S50000x64 .f32 := nodeT a0 (pV a2)

/-- The first aggregation: the transformed features of each message's source, weighted, summed at its target. -/
def hV (a0 : A0) (a1 : A1) (a2 : A2) : FVec Ideal S50000x64 .f32 :=
  Host.scatterAdd scatter_S50000x64_S850000x1_S850000x64_1_0_0_1 (broadcastInDim S50000x64 ![] bcast_S_S50000x64 (constant S_ .f32 0x00000000#32))
    (sidx (colV a1))
    (mulf (broadcastInDim S850000x64 ![0, 1] bcast_S850000x1_S850000x64_0_1 (normC a1))
      (Host.gather gather_S50000x64_S850000x1_S850000x64_1_0_n_n_0_1_164 (yV a0 a2) (gidx (rowV a1))))

/-- The hidden features: the rectified dense layer. -/
def h1V (a0 : A0) (a1 : A1) (a2 : A2) (a3 : A3) (a4 : A4) : FVec Ideal S50000x128 .f32 :=
  relu (affine2 (hV a0 a1 a2) a3 (shapeCast S1x128 a4 shapeCasts_S128_S1x128))

/-- The zero bias row of the early product. -/
def zrow : FVec Ideal S1x32 .f32 := shapeCast S1x32 (broadcastInDim S32 ![] bcast_S_S32 (constant S_ .f32 0x00000000#32)) shapeCasts_S32_S1x32

/-- The early product with the second weight matrix. -/
def hwV (a0 : A0) (a1 : A1) (a2 : A2) (a3 : A3) (a4 : A4) (a5 : A5) : FVec Ideal S50000x32 .f32 :=
  affine2 (h1V a0 a1 a2 a3 a4) a5 zrow

/-- The output bias over all rows. -/
def biasV (a6 : A6) : FVec Ideal S50000x32 .f32 :=
  broadcastInDim S50000x32 ![0, 1] bcast_S1x32_S50000x32_0_1 (broadcastInDim S1x32 ![1] bcast_S32_S1x32_1 a6)

/-- The result: the second aggregation, with the negated weights, plus the bias. -/
def outV (a0 : A0) (a1 : A1) (a2 : A2) (a3 : A3) (a4 : A4) (a5 : A5) (a6 : A6) : FVec Ideal S50000x32 .f32 :=
  addf (Host.scatterAdd scatter_S50000x32_S850000x1_S850000x32_1_0_0_1 (broadcastInDim S50000x32 ![] bcast_S_S50000x32 (constant S_ .f32 0x00000000#32))
      (sidx (colV a1))
      (mulf (broadcastInDim S850000x32 ![0, 1] bcast_S850000x1_S850000x32_0_1 (Host.negf (normC a1)))
        (Host.gather gather_S50000x32_S850000x1_S850000x32_1_0_n_n_0_1_132 (hwV a0 a1 a2 a3 a4 a5) (gidx (rowV a1)))))
    (biasV a6)

end Cert.KernelIdeal.Stages

end
-- ==== Proof.KernelValue.lean ====
/-
  The idealized kernel's result array as a function of the argument arrays.

  The contents of the buffers at the seven segment boundaries are a fold from the launch memory: a stretch of host
  operations rewrites the buffers it names and keeps the rest, a pallas_call leaves its output array at what its
  blocks cover and keeps every other buffer. Walking the fold back from the result buffer: the last stretch reads the
  early product (the third call's output), the edge weights and the two index arrays; the third call reads the hidden
  features (the second call's output) and the second weight matrix; the second call reads the first aggregation, the
  first weight matrix and bias; the first aggregation reads the transformed features (the first call's output), the
  weights and the indices; and those are host stages of the arguments.
-/
import proofs.«168506_j28295244546111_2_alg».proof.Proof.KernelRun
import proofs.«168506_j28295244546111_2_alg».proof.Proof.Blocks
import proofs.«168506_j28295244546111_2_alg».proof.Proof.Stages

set_option maxRecDepth 16384

noncomputable section

namespace Cert.KernelIdeal.Fold

open Cert.KernelIdeal Cert.KernelIdeal.Gen Cert.KernelIdeal.Stages Cert.Dense Cert.Gcn Cert.GraphConv
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A stretch of host operations keeps a buffer none of them writes. -/
macro "host_keeps" : tactic =>
  `(tactic| (refine StableHlo.after_of_forall_not_mem _ _ (List.forall_iff_forall_mem.mp ?_)
             simp only [hostOps0, hostOps1, hostOps2, hostOps3, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## Before the first call -/

theorem W1_arg0 : W1 m ρ c (Proc.devRef .tc main_arg0) = (m ((c : Thread nD τ).loc main_arg0)) :=
  (show W1 m ρ c (Proc.devRef .tc main_arg0) = W0 m ρ c (Proc.devRef .tc main_arg0) by host_keeps).trans rfl
theorem W1_arg3 : W1 m ρ c (Proc.devRef .tc main_arg3) = (m ((c : Thread nD τ).loc main_arg3)) :=
  (show W1 m ρ c (Proc.devRef .tc main_arg3) = W0 m ρ c (Proc.devRef .tc main_arg3) by host_keeps).trans rfl
theorem W1_arg4 : W1 m ρ c (Proc.devRef .tc main_arg4) = (m ((c : Thread nD τ).loc main_arg4)) :=
  (show W1 m ρ c (Proc.devRef .tc main_arg4) = W0 m ρ c (Proc.devRef .tc main_arg4) by host_keeps).trans rfl

theorem W1_v3 : W1 m ρ c (Proc.devRef .tc main_v3) = rowV (m ((c : Thread nD τ).loc main_arg1)) := by
  dsimp only [W1, hostOps0]
  after_results_simp
  rfl
theorem W1_v6 : W1 m ρ c (Proc.devRef .tc main_v6) = colV (m ((c : Thread nD τ).loc main_arg1)) := by
  dsimp only [W1, hostOps0]
  after_results_simp
  rfl
theorem W1_v27 : W1 m ρ c (Proc.devRef .tc main_v27) = normV (m ((c : Thread nD τ).loc main_arg1)) := by
  dsimp only [W1, hostOps0]
  after_results_simp
  rfl
theorem W1_v29 : W1 m ρ c (Proc.devRef .tc main_v29) = pV (m ((c : Thread nD τ).loc main_arg2)) := by
  dsimp only [W1, hostOps0]
  after_results_simp
  rfl

/-! ## After the first call -/

theorem W2_v30 : W2 m ρ c (Proc.devRef .tc main_v30) = yV (m ((c : Thread nD τ).loc main_arg0)) (m ((c : Thread nD τ).loc main_arg2)) := by
  refine (W2_arr m ρ c 2).trans ?_
  rw [Blocks.final0]
  show nodeT (W1 m ρ c (Proc.devRef .tc main_arg0)) (W1 m ρ c (Proc.devRef .tc main_v29)) = _
  rw [W1_arg0, W1_v29]
  rfl
theorem W2_v3 : W2 m ρ c (Proc.devRef .tc main_v3) = rowV (m ((c : Thread nD τ).loc main_arg1)) := (W2_of_ne m ρ c main_v3 (by decide)).trans (W1_v3 m ρ c)
theorem W2_v6 : W2 m ρ c (Proc.devRef .tc main_v6) = colV (m ((c : Thread nD τ).loc main_arg1)) := (W2_of_ne m ρ c main_v6 (by decide)).trans (W1_v6 m ρ c)
theorem W2_v27 : W2 m ρ c (Proc.devRef .tc main_v27) = normV (m ((c : Thread nD τ).loc main_arg1)) := (W2_of_ne m ρ c main_v27 (by decide)).trans (W1_v27 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)

/-! ## Before the second call -/

theorem W3_v43 : W3 m ρ c (Proc.devRef .tc main_v43) = hV (m ((c : Thread nD τ).loc main_arg0)) (m ((c : Thread nD τ).loc main_arg1)) (m ((c : Thread nD τ).loc main_arg2)) := by
  dsimp only [W3, hostOps1]
  after_results_simp
  rw [W2_v27, W2_v3, W2_v6, W2_v30]
  rfl
theorem W3_v44 : W3 m ρ c (Proc.devRef .tc main_v44) = shapeCast S1x128 (m ((c : Thread nD τ).loc main_arg4)) shapeCasts_S128_S1x128 := by
  dsimp only [W3, hostOps1]
  after_results_simp
  rw [W2_arg4]
  rfl
theorem W3_arg3 : W3 m ρ c (Proc.devRef .tc main_arg3) = (m ((c : Thread nD τ).loc main_arg3)) :=
  (show W3 m ρ c (Proc.devRef .tc main_arg3) = W2 m ρ c (Proc.devRef .tc main_arg3) by host_keeps).trans (W2_arg3 m ρ c)
theorem W3_v3 : W3 m ρ c (Proc.devRef .tc main_v3) = rowV (m ((c : Thread nD τ).loc main_arg1)) :=
  (show W3 m ρ c (Proc.devRef .tc main_v3) = W2 m ρ c (Proc.devRef .tc main_v3) by host_keeps).trans (W2_v3 m ρ c)
theorem W3_v6 : W3 m ρ c (Proc.devRef .tc main_v6) = colV (m ((c : Thread nD τ).loc main_arg1)) :=
  (show W3 m ρ c (Proc.devRef .tc main_v6) = W2 m ρ c (Proc.devRef .tc main_v6) by host_keeps).trans (W2_v6 m ρ c)
theorem W3_v27 : W3 m ρ c (Proc.devRef .tc main_v27) = normV (m ((c : Thread nD τ).loc main_arg1)) :=
  (show W3 m ρ c (Proc.devRef .tc main_v27) = W2 m ρ c (Proc.devRef .tc main_v27) by host_keeps).trans (W2_v27 m ρ c)

/-! ## After the second call -/

theorem W4_v45 : W4 m ρ c (Proc.devRef .tc main_v45) = h1V (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 3).trans ?_
  rw [Blocks.final1]
  show relu (affine2 (W3 m ρ c (Proc.devRef .tc main_v43)) (W3 m ρ c (Proc.devRef .tc main_arg3)) (W3 m ρ c (Proc.devRef .tc main_v44))) = _
  rw [W3_v43, W3_arg3, W3_v44]
  rfl
theorem W4_v3 : W4 m ρ c (Proc.devRef .tc main_v3) = rowV (m ((c : Thread nD τ).loc main_arg1)) := (W4_of_ne m ρ c main_v3 (by decide)).trans (W3_v3 m ρ c)
theorem W4_v6 : W4 m ρ c (Proc.devRef .tc main_v6) = colV (m ((c : Thread nD τ).loc main_arg1)) := (W4_of_ne m ρ c main_v6 (by decide)).trans (W3_v6 m ρ c)
theorem W4_v27 : W4 m ρ c (Proc.devRef .tc main_v27) = normV (m ((c : Thread nD τ).loc main_arg1)) := (W4_of_ne m ρ c main_v27 (by decide)).trans (W3_v27 m ρ c)

/-! ## Before the third call -/

theorem W5_v45 : W5 m ρ c (Proc.devRef .tc main_v45) = h1V (m ((c : Thread nD τ).loc main_arg0)) (m ((c : Thread nD τ).loc main_arg1)) (m ((c : Thread nD τ).loc main_arg2)) (m ((c : Thread nD τ).loc main_arg3)) (m ((c : Thread nD τ).loc main_arg4)) :=
  (show W5 m ρ c (Proc.devRef .tc main_v45) = W4 m ρ c (Proc.devRef .tc main_v45) by host_keeps).trans (W4_v45 m ρ c)
theorem W5_v47 : W5 m ρ c (Proc.devRef .tc main_v47) = zrow := by
  dsimp only [W5, hostOps2]
  after_results_simp
  rfl
/-- The second weight matrix is an argument no segment writes (the third call only reads it): read forward to the last
    boundary. -/
theorem W5_arg5 : W5 m ρ c (Proc.devRef .tc main_arg5) = (m ((c : Thread nD τ).loc main_arg5)) :=
  (show W6 m ρ c (Proc.devRef .tc main_arg5) = W5 m ρ c (Proc.devRef .tc main_arg5) from
      (W6_arr m ρ c 1).trans (((dat2 (V5 m ρ) c).arrAt_in 1 rfl _).trans (A_eq2 (V5 m ρ) c 1))).symm.trans
    ((show W7 m ρ c (Proc.devRef .tc main_arg5) = W6 m ρ c (Proc.devRef .tc main_arg5) by host_keeps).symm.trans (W7_main_arg5 m ρ c))
theorem W5_v3 : W5 m ρ c (Proc.devRef .tc main_v3) = rowV (m ((c : Thread nD τ).loc main_arg1)) :=
  (show W5 m ρ c (Proc.devRef .tc main_v3) = W4 m ρ c (Proc.devRef .tc main_v3) by host_keeps).trans (W4_v3 m ρ c)
theorem W5_v6 : W5 m ρ c (Proc.devRef .tc main_v6) = colV (m ((c : Thread nD τ).loc main_arg1)) :=
  (show W5 m ρ c (Proc.devRef .tc main_v6) = W4 m ρ c (Proc.devRef .tc main_v6) by host_keeps).trans (W4_v6 m ρ c)
theorem W5_v27 : W5 m ρ c (Proc.devRef .tc main_v27) = normV (m ((c : Thread nD τ).loc main_arg1)) :=
  (show W5 m ρ c (Proc.devRef .tc main_v27) = W4 m ρ c (Proc.devRef .tc main_v27) by host_keeps).trans (W4_v27 m ρ c)

/-! ## After the third call -/

theorem W6_v48 : W6 m ρ c (Proc.devRef .tc main_v48) = hwV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ?_
  rw [Blocks.final2]
  show affine2 (W5 m ρ c (Proc.devRef .tc main_v45)) (W5 m ρ c (Proc.devRef .tc main_arg5)) (W5 m ρ c (Proc.devRef .tc main_v47)) = _
  rw [W5_v45, W5_arg5, W5_v47]
  rfl
theorem W6_v3 : W6 m ρ c (Proc.devRef .tc main_v3) = rowV (m ((c : Thread nD τ).loc main_arg1)) := (W6_of_ne m ρ c main_v3 (by decide)).trans (W5_v3 m ρ c)
theorem W6_v6 : W6 m ρ c (Proc.devRef .tc main_v6) = colV (m ((c : Thread nD τ).loc main_arg1)) := (W6_of_ne m ρ c main_v6 (by decide)).trans (W5_v6 m ρ c)
theorem W6_v27 : W6 m ρ c (Proc.devRef .tc main_v27) = normV (m ((c : Thread nD τ).loc main_arg1)) := (W6_of_ne m ρ c main_v27 (by decide)).trans (W5_v27 m ρ c)
theorem W6_arg6 : W6 m ρ c (Proc.devRef .tc main_arg6) = (m ((c : Thread nD τ).loc main_arg6)) :=
  (show W7 m ρ c (Proc.devRef .tc main_arg6) = W6 m ρ c (Proc.devRef .tc main_arg6) by host_keeps).symm.trans (W7_main_arg6 m ρ c)

/-! ## The result -/

theorem W7_v65 : W7 m ρ c (Proc.devRef .tc main_v65) = outV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W7, hostOps3]
  after_results_simp
  rw [W6_v27, W6_v3, W6_v6, W6_v48, W6_arg6]
  rfl

/-- Every weakly fair execution of the idealized kernel ends with the result array at `outV` of the arguments and the
    arguments as launched. -/
theorem run : θ_run defs (onTc (τ := τ) (main (F := Ideal))) ⟨m, fun _ => 0, ρ⟩ (fun r => ∀ c : Dev nD,
      r.2.mem ((c.tc : Thread nD τ).loc main_v65)
        = outV (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W7_v65 m ρ c), (h c).2⟩) (Run.run_result m ρ)

end Cert.KernelIdeal.Fold

end
-- ==== Proof.Bridge.lean ====
/-
  The reference's result is the kernel's function of the arguments.

  Up to the edge weights and the index columns the two programs apply the same operations to the edge list. Then:
  (1) the reference gathers features and masks by source and transforms the gathered rows, the kernel transforms every
  node once and gathers the transformed rows — the transform acts entry by entry under the row's mask, so a gathered
  transformed row is the transform of the gathered row; the first aggregations agree. (2) Both apply the same rectified
  dense layer to it. (3) The reference gathers the hidden rows, weights them by the negated edge weights, sums them
  by target and multiplies by the second weight matrix; the kernel multiplies the hidden rows by that matrix first (plus
  a zero row) and then gathers, weights and sums. These agree by the linear step, every entry being real: the weights
  because a degree is a finite sum of ones and a real power of a real is real, the hidden features because the inputs
  are real and every operation on the way keeps real numbers real.
-/
import proofs.«168506_j28295244546111_2_alg».proof.Proof.Gen.ReferenceIdeal.Read
import proofs.«168506_j28295244546111_2_alg».proof.Proof.Stages

set_option maxRecDepth 16384

noncomputable section

namespace Cert.Bridge

open Cert.KernelIdeal Cert.KernelIdeal.Gen Cert.KernelIdeal.Stages Cert.Dense Cert.Gcn Cert.GraphConv Cert.Indexed
open Cert.ReferenceIdeal.Read
open Idealize.ShloMosaic Idealize.ShloMosaic.ValueIdx

variable (x0 : A0) (x1 : A1) (x2 : A2) (x3 : A3) (x4 : A4) (x5 : A5) (x6 : A6)

/-! ## The stages the two programs share -/

theorem r_row : val_main_v3 (F := Ideal) x1 = rowV x1 := rfl
theorem r_col : val_main_v6 (F := Ideal) x1 = colV x1 := rfl
theorem r_g33 : val_main_v33 (F := Ideal) x1 = gidx (rowV x1) := rfl
theorem r_g40 : val_main_v40 (F := Ideal) x1 = gidx (rowV x1) := rfl
theorem r_g77 : val_main_v77 (F := Ideal) x1 = gidx (rowV x1) := rfl
theorem r_s63 : val_main_v63 (F := Ideal) x1 = sidx (colV x1) := rfl
theorem r_s82 : val_main_v82 (F := Ideal) x1 = sidx (colV x1) := rfl
theorem r_norm : val_main_v27 (F := Ideal) x1 = normV x1 := rfl
theorem r_n52 : val_main_v52 (F := Ideal) x1 = normC x1 := rfl
theorem r_n70 : val_main_v70 (F := Ideal) x1 = normC x1 := rfl

/-! ## Real entries -/

theorem finite_normV : Finite (normV x1) :=
  have hdeg : Finite (degV x1) :=
    finite_scatterAdd _ _ (finite_broadcastInDim _ (finite_constant_f32 _ (by decide)))
      (finite_broadcastInDim _ (finite_constant_f32 _ (by decide)))
  have hdis : Finite (disV x1) :=
    finite_hostPowf hdeg (finite_broadcastInDim _ (finite_constant_f32 _ (by decide)))
  finite_mulf (finite_gather _ _ hdis) (finite_gather _ _ hdis)

theorem finite_normC : Finite (normC x1) := finite_broadcastInDim _ (finite_normV x1)

theorem finite_yV (h0 : Finite x0) : Finite (yV x0 x2) :=
  finite_nodeT h0 (finite_shapeCast _ (finite_uitofp x2))

theorem finite_hV (h0 : Finite x0) : Finite (hV x0 x1 x2) :=
  finite_scatterAdd _ _ (finite_broadcastInDim _ (finite_constant_f32 _ (by decide)))
    (finite_mulf (finite_broadcastInDim _ (finite_normC x1)) (finite_gather _ _ (finite_yV x0 x2 h0)))

theorem finite_h1V (h0 : Finite x0) (h3 : Finite x3) (h4 : Finite x4) : Finite (h1V x0 x1 x2 x3 x4) :=
  finite_relu (finite_affine2 (finite_hV x0 x1 x2 h0) h3 (finite_shapeCast _ h4))

/-! ## (1) The messages of the first aggregation -/

/-- The mask column at a row is the mask's value there. -/
theorem pV_apply (r : Fin 50000) : pV x2 (ix2 r (0 : Fin 1)) = FloatOps.uitofp (F := Ideal) .f32 (x2 (ix1 r)) := by
  refine shapeCast_apply (uitofp (F := Ideal) .f32 x2) shapeCasts_S50000_S50000x1 (ix2 r (0 : Fin 1)) (ix1 r) ?_
  rw [Shape.rowMajor_val_two, Shape.rowMajor_val_one]
  show r.val = r.val * 1 + 0
  omega

theorem msg1 : val_main_v59 (F := Ideal) x0 x1 x2
    = Host.gather gather_S50000x64_S850000x1_S850000x64_1_0_n_n_0_1_164 (yV x0 x2) (gidx (rowV x1)) := by
  funext i
  obtain ⟨e, d, rfl⟩ : ∃ (e : Fin 850000) (d : Fin 64), i = ix2 e d := ⟨i 0, i 1, eq_ix2 i⟩
  have hj : idx_main_v43 (idx_main_v53 (ix2 e d)) = ix1 e := funext fun a => by
    match a with
    | ⟨0, _⟩ => rfl
  have h34 : val_main_v34 (F := Ideal) x0 x1 (ix2 e d)
      = x0 (ix2 (clampRow 50000 (by decide) (gidx (rowV x1) (ix2 e (0 : Fin 1)))) d) := by
    unfold val_main_v34
    rw [r_g33]
    exact rowGather_at (by decide) Cert.ReferenceIdeal.Gen.gather_S50000x64_S850000x1_S850000x64_1_0_n_n_0_1_164_wf x0 (gidx (rowV x1)) e d
  have h41 : val_main_v41 (F := Ideal) x1 x2 (ix1 e)
      = x2 (ix1 (clampRow 50000 (by decide) (gidx (rowV x1) (ix2 e (0 : Fin 1))))) := by
    unfold val_main_v41
    rw [r_g40]
    exact flatGather_at (by decide) Cert.ReferenceIdeal.Gen.gather_S50000_S850000x1_S850000_n_0_n_n_0_1_1_wf x2 (gidx (rowV x1)) e
  have hR : Host.gather gather_S50000x64_S850000x1_S850000x64_1_0_n_n_0_1_164 (yV x0 x2) (gidx (rowV x1)) (ix2 e d)
      = phi (x0 (ix2 (clampRow 50000 (by decide) (gidx (rowV x1) (ix2 e (0 : Fin 1)))) d))
          (FloatOps.uitofp (F := Ideal) .f32 (x2 (ix1 (clampRow 50000 (by decide) (gidx (rowV x1) (ix2 e (0 : Fin 1))))))) := by
    refine (rowGather_at (by decide) gather_S50000x64_S850000x1_S850000x64_1_0_n_n_0_1_164_wf (yV x0 x2) (gidx (rowV x1)) e d).trans ?_
    show phi _ (pV x2 (ix2 _ (0 : Fin 1))) = _
    rw [pV_apply]
  rw [hR]
  simp only [val_main_v59_apply, val_main_v54_apply, val_main_v53_apply, val_main_v43_apply, val_main_v42_apply, val_main_v51_apply,
    val_main_v49_apply, val_main_v47_apply, val_main_v45_apply, val_main_v44_apply, val_main_cst_9_apply, val_main_v46_apply,
    val_main_cst_10_apply, val_main_v48_apply, val_main_cst_11_apply, val_main_v50_apply, val_main_cst_12_apply, val_main_v58_apply,
    val_main_v57_apply, val_main_v56_apply, val_main_v55_apply, val_main_cst_13_apply]
  rw [hj, h34, h41]
  rfl

/-- The first aggregations agree. -/
theorem agg1 : val_main_v64 (F := Ideal) x0 x1 x2 = hV x0 x1 x2 := by
  unfold val_main_v64 val_main_v61 val_main_v60
  rw [msg1, r_s63, r_n52]
  rfl

/-! ## (2) The rectified dense layer -/

/-- A bias as a one-row matrix, read at its one row. -/
theorem shapeCast_row_apply (b : FVec Ideal S128 .f32) (q : Fin 128) :
    shapeCast S1x128 b shapeCasts_S128_S1x128 (ix2 (0 : Fin 1) q) = b (ix1 q) := by
  refine shapeCast_apply b shapeCasts_S128_S1x128 (ix2 (0 : Fin 1) q) (ix1 q) ?_
  rw [Shape.rowMajor_val_two, Shape.rowMajor_val_one]
  show q.val = 0 * 128 + q.val
  omega

theorem hidden : val_main_v69 (F := Ideal) x0 x1 x2 x3 x4 = h1V x0 x1 x2 x3 x4 := by
  show maximumf (addf (Host.dotGeneral (F := Ideal) (DotDims.plain 50000 64 128) none (val_main_v64 (F := Ideal) x0 x1 x2) x3)
      (broadcastInDim S50000x128 ![0, 1] Cert.ReferenceIdeal.Gen.bcast_S1x128_S50000x128_0_1 (broadcastInDim S1x128 ![1] Cert.ReferenceIdeal.Gen.bcast_S128_S1x128_1 x4)))
      (broadcastInDim S50000x128 ![] Cert.ReferenceIdeal.Gen.bcast_S_S50000x128 (constant (F := Ideal) S_ .f32 0x00000000#32)) = _
  rw [addf_dotGeneral_broadcastInDim, maximumf_broadcastInDim_zero, agg1]
  unfold h1V
  rw [affine_eq_affine2 (hV x0 x1 x2) x3 x4 (shapeCast S1x128 x4 shapeCasts_S128_S1x128) (shapeCast_row_apply x4)]

/-! ## (3) The second aggregation and the product -/

theorem zero_bcast {t : Shape} (h : (⟨0, ![]⟩ : Shape).BroadcastsInDim t (![] : Fin 0 → Fin t.rank)) (i : t.Idx) :
    broadcastInDim t ![] h (constant (F := Ideal) ⟨0, ![]⟩ .f32 0x00000000#32) i = 0 :=
  (bcast_scalar_apply h _ i).trans Ideal.ofBits_zero_f32

theorem zrow_apply (q : Fin 32) : zrow (ix2 (0 : Fin 1) q) = 0 := by
  unfold zrow shapeCast
  exact zero_bcast bcast_S_S32 _

/-- THE RESULT: the reference's staged value is the kernel's function of the arguments, the float inputs real. -/
theorem result_eq (h0 : Finite x0) (h3 : Finite x3) (h4 : Finite x4) (h5 : Finite x5) :
    val_main_v87 (F := Ideal) x0 x1 x2 x3 x4 x5 x6 = outV x0 x1 x2 x3 x4 x5 x6 := by
  have key := scatter_gather_mm (N := 50000) (M := 850000) (K := 128) (O := 32) (by decide)
    scatter_S50000x32_S850000x1_S850000x32_1_0_0_1_wf Cert.ReferenceIdeal.Gen.scatter_S50000x128_S850000x1_S850000x128_1_0_0_1_wf
    gather_S50000x32_S850000x1_S850000x32_1_0_n_n_0_1_132_wf Cert.ReferenceIdeal.Gen.gather_S50000x128_S850000x1_S850000x128_1_0_n_n_0_1_1128_wf
    bcast_S850000x1_S850000x32_0_1 Cert.ReferenceIdeal.Gen.bcast_S850000x1_S850000x128_0_1
    (broadcastInDim S50000x32 ![] bcast_S_S50000x32 (constant (F := Ideal) S_ .f32 0x00000000#32))
    (broadcastInDim Cert.ReferenceIdeal.S50000x128 ![] Cert.ReferenceIdeal.Gen.bcast_S_S50000x128 (constant (F := Ideal) S_ .f32 0x00000000#32))
    (zero_bcast bcast_S_S50000x32) (zero_bcast Cert.ReferenceIdeal.Gen.bcast_S_S50000x128)
    (sidx (colV x1)) (gidx (rowV x1)) (Host.negf (normC x1)) (h1V x0 x1 x2 x3 x4) x5 zrow zrow_apply
    (finite_hostNegf (finite_normC x1)) (finite_h1V x0 x1 x2 x3 x4 h0 h3 h4) h5
  unfold val_main_v87 val_main_v86 val_main_v85 val_main_v84 val_main_v83 val_main_v80 val_main_v79 val_main_v78 val_main_v71 val_main_v81
  rw [hidden, r_g77, r_s82, r_n70]
  show addf (Host.dotGeneral (F := Ideal) (DotDims.plain 50000 128 32) none _ x5) _ = _
  rw [dotGeneral_plain]
  unfold outV hwV
  exact congrArg (fun X => addf X (biasV x6)) key.symm

end Cert.Bridge

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«168506_j28295244546111_2_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.PreFinite.lean ====
/-
  The precondition, decoded: every entry of the feature matrix, of both weight matrices and of the first bias is a
  real number.

  The precondition is the conjunction, input by input, of "every entry's absolute value is below +∞"; a conjunction
  that holds gives each conjunct, and each conjunct gives every entry of its array real.
-/
import proofs.«168506_j28295244546111_2_alg».proof.Pre_finite_inputs
import proofs.«168506_j28295244546111_2_alg».proof.Proof.LibFinite

noncomputable section

namespace Cert.Gcn

open Idealize.ShloMosaic Idealize.ShloMosaic.ValueIdx Cert.Pre_finite_inputs

variable [Cert.Pre_finite_inputs.Facts]

theorem finite_of_pre (a0 : FVec Ideal S50000x64 .f32) (a1 : IVec S2x800000 32) (a2 : IVec S50000 1) (a3 : FVec Ideal S64x128 .f32)
    (a4 : FVec Ideal S128 .f32) (a5 : FVec Ideal S128x32 .f32) (a6 : FVec Ideal S32 .f32)
    (h : Cert.Pre_finite_inputs.fn (F := Ideal) a0 a1 a2 a3 a4 a5 a6 = fun _ => 1#1) :
    Finite a0 ∧ Finite a3 ∧ Finite a4 ∧ Finite a5 := by
  have h0 := congrFun h ix0
  dsimp only [Cert.Pre_finite_inputs.fn, Cert.Pre_finite_inputs.fn_part1] at h0
  obtain ⟨h0123, -⟩ := IntOp.andi_eq_one.mp h0
  obtain ⟨h012, h5⟩ := IntOp.andi_eq_one.mp h0123
  obtain ⟨h01, h4⟩ := IntOp.andi_eq_one.mp h012
  obtain ⟨hh0, h3⟩ := IntOp.andi_eq_one.mp h01
  exact ⟨finite_of_all a0 _ _ _ hh0, finite_of_all a3 _ _ _ h3, finite_of_all a4 _ _ _ h4, finite_of_all a5 _ _ _ h5⟩

end Cert.Gcn

end
-- ==== Proof.lean ====
/-
  A two-layer graph convolution with a privacy-masked node transform: the tiled kernel against its plain reference,
  on the extended reals.

  Both programs build the same edge weights from the edge list (degrees by a segment sum of ones, their power −½ at
  an edge's two ends). The kernel then (a) transforms every node's features once, under the node's mask, and gathers
  the transformed rows by source, where the reference gathers features and masks by source and transforms the gathered
  rows: the transform acts entry by entry, so the two agree; (b) computes the same rectified dense layer, block of
  rows by block of rows, a row of the layer depending on the same row of its input only; (c) multiplies the hidden
  features by the second weight matrix BEFORE gathering, weighting by the negated edge weights and summing by target,
  where the reference does the product after the segment sum. (c) is linearity of a finite sum — distributivity and
  an exchange of two sums — which holds for real numbers and fails at the infinities, so it uses that every float
  input is finite: then the weights, the transformed and the hidden features are all real. Nothing else about the
  inputs is used; the integer indices and the masks are arbitrary.
-/
import proofs.«168506_j28295244546111_2_alg».proof.Defs
import proofs.«168506_j28295244546111_2_alg».proof.Proof.Gen.Kernel
import proofs.«168506_j28295244546111_2_alg».proof.Proof.Gen.Kernel.Frame
import proofs.«168506_j28295244546111_2_alg».proof.Proof.Gen.KernelIdeal
import proofs.«168506_j28295244546111_2_alg».proof.Proof.Gen.KernelIdeal.Frame
import proofs.«168506_j28295244546111_2_alg».proof.Proof.Gen.ReferenceIdeal
import proofs.«168506_j28295244546111_2_alg».proof.Proof.Gen.Pre_finite_inputs
import proofs.«168506_j28295244546111_2_alg».proof.Proof.Gen.ReferenceIdeal.Run
import proofs.«168506_j28295244546111_2_alg».proof.Proof.Gen.ReferenceIdeal.Read
import proofs.«168506_j28295244546111_2_alg».proof.Proof.KernelValue
import proofs.«168506_j28295244546111_2_alg».proof.Proof.Bridge
import proofs.«168506_j28295244546111_2_alg».proof.Proof.PreFinite

noncomputable section

namespace Cert.Proof

open Idealize.ShloMosaic Idealize.SL.Sem

/-- The kernel as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, the float arguments finite, both programs end with the same result: the
    kernel's run names its result as a function of the arguments, the reference's run names its own, and the two
    functions agree on real inputs. -/
theorem algebraic : Cert.algebraic_KernelIdeal_ReferenceIdeal := by
  intro m ρ m' ρ' hpre hagree
  refine ⟨_, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f3, f4, f5⟩ := Cert.Gcn.finite_of_pre _ _ _ _ _ _ _ (hpre c)
  rw [Cert.ReferenceIdeal.Read.val_main_v87_eq, (hagree c).1, (hagree c).2.1, (hagree c).2.2.1, (hagree c).2.2.2.1,
    (hagree c).2.2.2.2.1, (hagree c).2.2.2.2.2.1, (hagree c).2.2.2.2.2.2]
  exact Cert.Bridge.result_eq _ _ _ _ _ _ _ f0 f3 f4 f5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
